-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S64x4096 : Shape := ⟨2, ![64, 4096]⟩
abbrev S4096x64 : Shape := ⟨2, ![4096, 64]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S64x4096 : S_.BroadcastsInDim S64x4096 (![] : Fin 0 → Fin S64x4096.rank)
  reducesTo_S64x4096_S_d0_1 : S64x4096.ReducesTo [0, 1] S_
  bcast_S_S4096x64 : S_.BroadcastsInDim S4096x64 (![] : Fin 0 → Fin S4096x64.rank)
  reducesTo_S4096x64_S_d0_1 : S4096x64.ReducesTo [0, 1] S_

variable [Facts]

def fn_part1 {F : FTy → Type} [FloatOps F] (main_v13 : IVec S_ 1) (main_v16 : IVec S4096x64 1) : IVec S_ 1 :=
  let main_c_5 : IVec S_ 1 := constantI S_ 1 1#1
  let main_v17 : IVec S_ 1 := (fun x v => Host.reduce IntOp.andi x v reducesTo_S4096x64_S_d0_1 h_S_) main_v16 main_c_5
  let main_v18 : IVec S_ 1 := andi main_v13 main_v17
  main_v18

def fn {F : FTy → Type} [FloatOps F] (main_arg0 : FVec F S4x2048x4096 .f32) (main_arg1 : FVec F S4096x4096 .f32) (main_arg2 : FVec F S64x4096 .f32) (main_arg3 : FVec F S4096x64 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S64x4096 .f32 := Host.absf main_arg2
  let main_cst_2 : FVec F S_ .f32 := constant S_ .f32 0x7F800000#32
  let main_v10 : FVec F S64x4096 .f32 := broadcastInDim S64x4096 ![] bcast_S_S64x4096 main_cst_2
  let main_v11 : IVec S64x4096 1 := cmpf .olt main_v9 main_v10
  let main_c_3 : IVec S_ 1 := constantI S_ 1 1#1
  let main_v12 : IVec S_ 1 := (fun x v => Host.reduce IntOp.andi x v reducesTo_S64x4096_S_d0_1 h_S_) main_v11 main_c_3
  let main_v13 : IVec S_ 1 := andi main_v8 main_v12
  let main_v14 : FVec F S4096x64 .f32 := Host.absf main_arg3
  let main_cst_4 : FVec F S_ .f32 := constant S_ .f32 0x7F800000#32
  let main_v15 : FVec F S4096x64 .f32 := broadcastInDim S4096x64 ![] bcast_S_S4096x64 main_cst_4
  let main_v16 : IVec S4096x64 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S64x4096 : Shape := ⟨2, ![64, 4096]⟩
abbrev S4096x64 : Shape := ⟨2, ![4096, 64]⟩
abbrev S8192x4096 : Shape := ⟨2, ![8192, 4096]⟩
abbrev S2048x256 : Shape := ⟨2, ![2048, 256]⟩
abbrev S64x256 : Shape := ⟨2, ![64, 256]⟩
abbrev S2048x64 : Shape := ⟨2, ![2048, 64]⟩
abbrev S2048x2048 : Shape := ⟨2, ![2048, 2048]⟩

abbrev nBuf : Space → Nat
  | .hbm => 7
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S64x4096, .f32⟩
  | .hbm, ⟨3, _⟩ => ⟨S4096x64, .f32⟩
  | .hbm, ⟨4, _⟩ => ⟨S8192x4096, .f32⟩
  | .hbm, ⟨5, _⟩ => ⟨S8192x4096, .f32⟩
  | .hbm, ⟨6, _⟩ => ⟨S4x2048x4096, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S64x256, .f32⟩
  | .local _ .vmem, ⟨5, _⟩ => ⟨S64x256, .f32⟩
  | .local _ .vmem, ⟨6, _⟩ => ⟨S2048x64, .f32⟩
  | .local _ .vmem, ⟨7, _⟩ => ⟨S2048x64, .f32⟩
  | .local _ .vmem, ⟨8, _⟩ => ⟨S2048x2048, .f32⟩
  | .local _ .vmem, ⟨9, _⟩ => ⟨S2048x2048, .f32⟩
  | .local _ .vmem, ⟨10, _⟩ => ⟨S2048x64, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  inb_S2048x2048_S2048x2048_0_0 : ∀ a, (![0, 0] : Fin 2 → Nat) a + S2048x2048.size a ≤ S2048x2048.size a
  h_S2048x2048 : 0 < S2048x2048.numel
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  shapeCasts_S2048x2048_S2048x2048 : S2048x2048.ShapeCasts S2048x2048
  inb_S64x256_S64x256_0_0 : ∀ a, (![0, 0] : Fin 2 → Nat) a + S64x256.size a ≤ S64x256.size a
  h_S64x256 : 0 < S64x256.numel
  shapeCasts_S8192x4096_S4x2048x4096 : S8192x4096.ShapeCasts S4x2048x4096
  dot_S2048x256_S2048x256_S2048x2048_1_1_0_0_n_n_wf : DotDims.WF S2048x256 S2048x256 S2048x2048 [1] [1] [0] [0] [] []
  dot_S2048x256_S64x256_S2048x64_1_1_0_0_n_n_wf : DotDims.WF S2048x256 S64x256 S2048x64 [1] [1] [0] [0] [] []
  dot_S2048x64_S2048x64_S2048x2048_1_1_0_0_n_n_wf : DotDims.WF S2048x64 S2048x64 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x4096.size a
  hwx0_0 : ∀ i : grid0.Coords, EltTy.bits .f32 = 32 ∨ (Rect.block (s := S8192x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S4096x4096.size a
  hwx0_1 : ∀ i : grid0.Coords, EltTy.bits .f32 = 32 ∨ (Rect.block (s := S4096x4096) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x4096.size a
  hwx0_2 : ∀ i : grid0.Coords, EltTy.bits .f32 = 32 ∨ (Rect.block (s := S64x4096) S64x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S4096x64.size a
  hwx0_3 : ∀ i : grid0.Coords, EltTy.bits .f32 = 32 ∨ (Rect.block (s := S4096x64) S2048x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S8192x4096.size a
  hwx0_4 : ∀ i : grid0.Coords, EltTy.bits .f32 = 32 ∨ (Rect.block (s := S8192x4096) S2048x2048.size (cc0_transform_4 i) (hinb0_4 i)).WholeWords (EltTy.packing .f32)

variable [Facts₀]

def dot_S2048x256_S2048x256_S2048x2048_1_1_0_0_n_n : DotDims S2048x256 S2048x256 S2048x2048 where
  lhsContracting := [1]
  rhsContracting := [1]
  lhsNonContracting := [0]
  rhsNonContracting := [0]
  lhsBatch := []
  rhsBatch := []
  wf := dot_S2048x256_S2048x256_S2048x2048_1_1_0_0_n_n_wf
def dot_S2048x256_S64x256_S2048x64_1_1_0_0_n_n : DotDims S2048x256 S64x256 S2048x64 where
  lhsContracting := [1]
  rhsContracting := [1]
  lhsNonContracting := [0]
  rhsNonContracting := [0]
  lhsBatch := []
  rhsBatch := []
  wf := dot_S2048x256_S64x256_S2048x64_1_1_0_0_n_n_wf
def dot_S2048x64_S2048x64_S2048x2048_1_1_0_0_n_n : DotDims S2048x64 S2048x64 S2048x2048 where
  lhsContracting := [1]
  rhsContracting := [1]
  lhsNonContracting := [0]
  rhsNonContracting := [0]
  lhsBatch := []
  rhsBatch := []
  wf := dot_S2048x64_S2048x64_S2048x2048_1_1_0_0_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2048x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S64x4096 : Shape := ⟨2, ![64, 4096]⟩
abbrev S4096x64 : Shape := ⟨2, ![4096, 64]⟩
abbrev S4x2048x64 : Shape := ⟨3, ![4, 2048, 64]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S64x4096, .f32⟩
  | .hbm, ⟨3, _⟩ => ⟨S4096x64, .f32⟩
  | .hbm, ⟨4, _⟩ => ⟨S4x2048x4096, .f32⟩
  | .hbm, ⟨5, _⟩ => ⟨S4x2048x64, .f32⟩
  | .hbm, ⟨6, _⟩ => ⟨S4x2048x4096, .f32⟩
  | .hbm, ⟨7, _⟩ => ⟨S_, .f32⟩
  | .hbm, ⟨8, _⟩ => ⟨S4x2048x4096, .f32⟩
  | .hbm, ⟨9, _⟩ => ⟨S4x2048x4096, .f32⟩
  | .hbm, ⟨10, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S64x4096_S4x2048x64_2_1_01_0_n_n_wf : DotDims.WF S4x2048x4096 S64x4096 S4x2048x64 [2] [1] [0, 1] [0] [] []
  dot_S4x2048x64_S4096x64_S4x2048x4096_2_1_01_0_n_n_wf : DotDims.WF S4x2048x64 S4096x64 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S64x4096_S4x2048x64_2_1_01_0_n_n : DotDims S4x2048x4096 S64x4096 S4x2048x64 where
  lhsContracting := [2]
  rhsContracting := [1]
  lhsNonContracting := [0, 1]
  rhsNonContracting := [0]
  lhsBatch := []
  rhsBatch := []
  wf := dot_S4x2048x4096_S64x4096_S4x2048x64_2_1_01_0_n_n_wf
def dot_S4x2048x64_S4096x64_S4x2048x4096_2_1_01_0_n_n : DotDims S4x2048x64 S4096x64 S4x2048x4096 where
  lhsContracting := [2]
  rhsContracting := [1]
  lhsNonContracting := [0, 1]
  rhsNonContracting := [0]
  lhsBatch := []
  rhsBatch := []
  wf := dot_S4x2048x64_S4096x64_S4x2048x4096_2_1_01_0_n_n_wf

class Facts : Prop extends Facts₀ where

variable [Facts]
-- ==== Proof.Pieces.lean ====
/-
  What one grid point leaves in the two accumulators.

  The body keeps two running sums in buffers that stay in place while the contraction index advances: the output
  block (2048 × 2048) and x · Aᵀ (2048 × 64). Whatever the point, it adds the point's block of the base product to
  the first and the point's block of x · Aᵀ to the second; at the first block both start from zero, and at the
  last block the output also receives twice the product of the finished x · Aᵀ with the adapter's second factor.
  Each lemma below reads the stores one case makes as that arithmetic of what the buffers held and of the point's
  input blocks.
-/
import proofs.«105471_j53068615909970_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-! ## The first block: both accumulators start from zero -/

/-- The output block after the first block: zero plus the block's share of the base product. -/
theorem out_A (c : Dev nD) (i : grid0.Coords) (a3 : Memref sig .tc .vmem S2048x256 .f32) (h3 : a3.IsWhole) (a4 : Memref sig .tc .vmem S2048x256 .f32) (h4 : a4.IsWhole) (a5 : Memref sig .tc .vmem S64x256 .f32) (h5 : a5.IsWhole) (a6 : Memref sig .tc .vmem S2048x64 .f32) (h6 : a6.IsWhole) (a7 : Memref sig .tc .vmem S2048x2048 .f32) (h7 : a7.IsWhole) (a8 : Memref sig .tc .vmem S2048x64 .f32) (h8 : a8.IsWhole) (hc0 : cond0_0 i) (hc1 : ¬cond0_1 i) (x0 : Vec F S2048x256 .f32) (x1 : Vec F S2048x256 .f32) (x2 : Vec F S64x256 .f32) (x3 : Vec F S2048x64 .f32) :
    out0_A_4 c i a3 h3 a4 h4 a5 h5 a6 h6 a7 h7 a8 h8 hc0 hc1 x0 x1 x2 x3 = k0_pay4 x0 x1 (k0_pay1 (F := F)) := by
  unfold out0_A_4
  rw [View.read_writes_eq_canon _ _ _ (cover0_A_4 c i a3 h3 a4 h4 a5 h5 a6 h6 a7 h7 a8 h8 hc0 hc1 x0 x1 x2 x3)]
  unfold kernelRun0_A
  dsimp only
  sl_unfold_words
  rw [View.canon_cons_unit_zero (S := S2048x2048) hz, View.readCov_unit_zero (S := S2048x2048) _ hz]
  simp only [View.readAt_eq_ld, h3.read_unread, h4.read_unread, View.ld_unit_zero (S := S2048x256) hz]

/-- x · Aᵀ after the first block: zero plus the block's share. -/
theorem sout_A (c : Dev nD) (i : grid0.Coords) (a3 : Memref sig .tc .vmem S2048x256 .f32) (h3 : a3.IsWhole) (a4 : Memref sig .tc .vmem S2048x256 .f32) (h4 : a4.IsWhole) (a5 : Memref sig .tc .vmem S64x256 .f32) (h5 : a5.IsWhole) (a6 : Memref sig .tc .vmem S2048x64 .f32) (h6 : a6.IsWhole) (a7 : Memref sig .tc .vmem S2048x2048 .f32) (h7 : a7.IsWhole) (a8 : Memref sig .tc .vmem S2048x64 .f32) (h8 : a8.IsWhole) (hc0 : cond0_0 i) (hc1 : ¬cond0_1 i) (x0 : Vec F S2048x256 .f32) (x1 : Vec F S2048x256 .f32) (x2 : Vec F S64x256 .f32) (x3 : Vec F S2048x64 .f32) :
    sout0_A_0 c i a3 h3 a4 h4 a5 h5 a6 h6 a7 h7 a8 h8 hc0 hc1 x0 x1 x2 x3 = k0_pay5 x0 x2 (k0_pay2 (F := F)) := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S2048x64) hz, View.readCov_unit_zero (S := S2048x64) _ hz]
  simp only [View.readAt_eq_ld, h3.read_unread, h5.read_unread, View.ld_unit_zero (S := S2048x256) hz,
    View.ld_unit_zero (S := S64x256) hz]

/-! ## A middle block: each accumulator gains the block's share -/

theorem out_B (c : Dev nD) (i : grid0.Coords) (a3 : Memref sig .tc .vmem S2048x256 .f32) (h3 : a3.IsWhole) (a4 : Memref sig .tc .vmem S2048x256 .f32) (h4 : a4.IsWhole) (a5 : Memref sig .tc .vmem S64x256 .f32) (h5 : a5.IsWhole) (a6 : Memref sig .tc .vmem S2048x64 .f32) (h6 : a6.IsWhole) (a7 : Memref sig .tc .vmem S2048x2048 .f32) (h7 : a7.IsWhole) (a8 : Memref sig .tc .vmem S2048x64 .f32) (h8 : a8.IsWhole) (hc0 : ¬cond0_0 i) (hc1 : ¬cond0_1 i) (x0 : Vec F S2048x256 .f32) (x1 : Vec F S2048x256 .f32) (x2 : Vec F S64x256 .f32) (x3 : Vec F S2048x64 .f32) (xo4 : Vec F S2048x2048 .f32) (xs0 : Vec F S2048x64 .f32) :
    out0_B_4 c i a3 h3 a4 h4 a5 h5 a6 h6 a7 h7 a8 h8 hc0 hc1 x0 x1 x2 x3 xo4 xs0 = k0_pay4 x0 x1 xo4 := by
  unfold out0_B_4
  rw [View.read_writes_eq_canon _ _ _ (cover0_B_4 c i a3 h3 a4 h4 a5 h5 a6 h6 a7 h7 a8 h8 hc0 hc1 x0 x1 x2 x3 xo4 xs0)]
  unfold kernelRun0_B
  dsimp only
  rw [View.canon_unit_zero hz]
  simp only [View.readAt_eq_ld, h3.read_unread, h4.read_unread, h7.read_unread, View.ld_unit_zero (S := S2048x256) hz,
    View.ld_unit_zero (S := S2048x2048) hz]

theorem sout_B (c : Dev nD) (i : grid0.Coords) (a3 : Memref sig .tc .vmem S2048x256 .f32) (h3 : a3.IsWhole) (a4 : Memref sig .tc .vmem S2048x256 .f32) (h4 : a4.IsWhole) (a5 : Memref sig .tc .vmem S64x256 .f32) (h5 : a5.IsWhole) (a6 : Memref sig .tc .vmem S2048x64 .f32) (h6 : a6.IsWhole) (a7 : Memref sig .tc .vmem S2048x2048 .f32) (h7 : a7.IsWhole) (a8 : Memref sig .tc .vmem S2048x64 .f32) (h8 : a8.IsWhole) (hc0 : ¬cond0_0 i) (hc1 : ¬cond0_1 i) (x0 : Vec F S2048x256 .f32) (x1 : Vec F S2048x256 .f32) (x2 : Vec F S64x256 .f32) (x3 : Vec F S2048x64 .f32) (xo4 : Vec F S2048x2048 .f32) (xs0 : Vec F S2048x64 .f32) :
    sout0_B_0 c i a3 h3 a4 h4 a5 h5 a6 h6 a7 h7 a8 h8 hc0 hc1 x0 x1 x2 x3 xo4 xs0 = k0_pay5 x0 x2 xs0 := by
  unfold sout0_B_0
  rw [View.read_writes_eq_canon _ _ _ (scover0_B_0 c i a3 h3 a4 h4 a5 h5 a6 h6 a7 h7 a8 h8 hc0 hc1 x0 x1 x2 x3 xo4 xs0)]
  unfold kernelRun0_B
  dsimp only
  rw [View.canon_unit_zero hz]
  simp only [View.readAt_eq_ld, h3.read_unread, h5.read_unread, h8.read_unread, View.ld_unit_zero (S := S2048x256) hz,
    View.ld_unit_zero (S := S64x256) hz, View.ld_unit_zero (S := S2048x64) hz]

/-! ## The last block: the low-rank product of the finished x · Aᵀ is added, doubled -/

theorem sout_C (c : Dev nD) (i : grid0.Coords) (a3 : Memref sig .tc .vmem S2048x256 .f32) (h3 : a3.IsWhole) (a4 : Memref sig .tc .vmem S2048x256 .f32) (h4 : a4.IsWhole) (a5 : Memref sig .tc .vmem S64x256 .f32) (h5 : a5.IsWhole) (a6 : Memref sig .tc .vmem S2048x64 .f32) (h6 : a6.IsWhole) (a7 : Memref sig .tc .vmem S2048x2048 .f32) (h7 : a7.IsWhole) (a8 : Memref sig .tc .vmem S2048x64 .f32) (h8 : a8.IsWhole) (hc0 : ¬cond0_0 i) (hc1 : cond0_1 i) (x0 : Vec F S2048x256 .f32) (x1 : Vec F S2048x256 .f32) (x2 : Vec F S64x256 .f32) (x3 : Vec F S2048x64 .f32) (xo4 : Vec F S2048x2048 .f32) (xs0 : Vec F S2048x64 .f32) :
    sout0_C_0 c i a3 h3 a4 h4 a5 h5 a6 h6 a7 h7 a8 h8 hc0 hc1 x0 x1 x2 x3 xo4 xs0 = k0_pay5 x0 x2 xs0 := by
  unfold sout0_C_0
  rw [View.read_writes_eq_canon _ _ _ (scover0_C_0 c i a3 h3 a4 h4 a5 h5 a6 h6 a7 h7 a8 h8 hc0 hc1 x0 x1 x2 x3 xo4 xs0)]
  unfold kernelRun0_C
  dsimp only
  sl_unfold_words
  rw [View.canon_unit_zero hz]
  simp only [View.readAt_eq_ld, h3.read_unread, h5.read_unread, h8.read_unread, View.ld_unit_zero (S := S2048x256) hz,
    View.ld_unit_zero (S := S64x256) hz, View.ld_unit_zero (S := S2048x64) hz]

/-- The output block after the last block: the block's share is added first, then twice the product of this
    point's x · Aᵀ (already updated) with the adapter's second factor. -/
theorem out_C (c : Dev nD) (i : grid0.Coords) (a3 : Memref sig .tc .vmem S2048x256 .f32) (h3 : a3.IsWhole) (a4 : Memref sig .tc .vmem S2048x256 .f32) (h4 : a4.IsWhole) (a5 : Memref sig .tc .vmem S64x256 .f32) (h5 : a5.IsWhole) (a6 : Memref sig .tc .vmem S2048x64 .f32) (h6 : a6.IsWhole) (a7 : Memref sig .tc .vmem S2048x2048 .f32) (h7 : a7.IsWhole) (a8 : Memref sig .tc .vmem S2048x64 .f32) (h8 : a8.IsWhole) (hc0 : ¬cond0_0 i) (hc1 : cond0_1 i) (x0 : Vec F S2048x256 .f32) (x1 : Vec F S2048x256 .f32) (x2 : Vec F S64x256 .f32) (x3 : Vec F S2048x64 .f32) (xo4 : Vec F S2048x2048 .f32) (xs0 : Vec F S2048x64 .f32) :
    out0_C_4 c i a3 h3 a4 h4 a5 h5 a6 h6 a7 h7 a8 h8 hc0 hc1 x0 x1 x2 x3 xo4 xs0 = k0_pay6 x3 (k0_pay5 x0 x2 xs0) (k0_pay4 x0 x1 xo4) := by
  unfold out0_C_4
  rw [View.read_writes_eq_canon _ _ _ (cover0_C_4 c i a3 h3 a4 h4 a5 h5 a6 h6 a7 h7 a8 h8 hc0 hc1 x0 x1 x2 x3 xo4 xs0)]
  unfold kernelRun0_C
  dsimp only
  sl_unfold_words
  rw [View.canon_cons_unit_zero (S := S2048x2048) hz, View.readCov_unit_zero (S := S2048x64) _ hz,
    View.readCov_unit_zero (S := S2048x2048) _ hz]
  simp only [View.readAt_eq_ld, h3.read_unread, h4.read_unread, h5.read_unread, h6.read_unread, h7.read_unread,
    h8.read_unread, View.ld_unit_zero (S := S2048x256) hz, View.ld_unit_zero (S := S64x256) hz,
    View.ld_unit_zero (S := S2048x64) hz, View.ld_unit_zero (S := S2048x2048) hz]

end Cert.KernelIdeal.Pieces

end
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.Payloads.lean ====
/-
  The body's arithmetic, entry by entry, over the extended reals.

  A change of float format is the identity there and a matrix-unit product into a zero accumulator is the plain
  contraction, so the value stored into an accumulator is "what it held, plus the point's contraction": for the output
  block the rows of the activations' block against the rows of the weight's block; for x · Aᵀ against the rows of the
  adapter's first factor; and at the last block twice the contraction of x · Aᵀ with the rows of the second factor.
-/
import proofs.«105471_j53068615909970_2_alg».proof.Proof.Gen.KernelIdeal.Skeleton
import proofs.«105471_j53068615909970_2_alg».proof.Proof.LibMatmul
import Idealize.ShloMosaic.Lib.Pipeline.Value
import Idealize.ShloMosaic.Lib.ValueIdx
import Idealize.ShloMosaic.PureOps.Ideal.Laws

noncomputable section

namespace Cert.KernelIdeal.Payloads

open Cert.KernelIdeal Cert.KernelIdeal.Gen Idealize.ShloMosaic Idealize.ShloMosaic.ValueIdx

/-- The block of zeros the output accumulator starts from. -/
theorem pay1_apply (y : S2048x2048.Idx) : k0_pay1 (F := Ideal) y = 0 := by
  unfold k0_pay1
  exact Ideal.ofBits_zero_f32

/-- The block of zeros x · Aᵀ starts from. -/
theorem pay2_apply (y : S2048x64.Idx) : k0_pay2 (F := Ideal) y = 0 := by
  unfold k0_pay2
  refine (congrFun (shapeCast_self _ _) y).trans ?_
  exact Ideal.ofBits_zero_f32

/-- The output accumulator gains the contraction of row p of the activations' block with row q of the weight's. -/
theorem pay4_apply (v3 v6 : Vec Ideal S2048x256 .f32) (v8 : Vec Ideal S2048x2048 .f32) (p q : Fin 2048) :
    k0_pay4 (F := Ideal) v3 v6 v8 (ix2 p q) = v8 (ix2 p q) + ∑ kk : Fin 256, v3 (ix2 p kk) * v6 (ix2 q kk) := by
  unfold k0_pay4 k0_pay3
  have e8 : shapeCast S2048x2048 v8 Facts₀.shapeCasts_S2048x2048_S2048x2048 = v8 := shapeCast_self _ _
  have e3 : shapeCast S2048x256 v3 Facts₀.shapeCasts_S2048x256_S2048x256 = v3 := shapeCast_self _ _
  try dsimp only
  rw [e8, e3]
  refine congrArg (v8 (ix2 p q) + ·) ?_
  exact (Cert.MatmulAt.matmul_zero_nt_apply Facts₀.dot_S2048x256_S2048x256_S2048x2048_1_1_0_0_n_n_wf none
    (truncf .bf16 v3 Facts₀.bitsLt_bf16_f32) (truncf .bf16 v6 Facts₀.bitsLt_bf16_f32) p q).trans (Finset.sum_congr rfl fun _ _ => rfl)

/-- x · Aᵀ gains the contraction of row p of the activations' block with row r of the first factor's. -/
theorem pay5_apply (v3 : Vec Ideal S2048x256 .f32) (v13 : Vec Ideal S64x256 .f32) (v15 : Vec Ideal S2048x64 .f32)
    (p : Fin 2048) (r : Fin 64) :
    k0_pay5 (F := Ideal) v3 v13 v15 (ix2 p r) = v15 (ix2 p r) + ∑ kk : Fin 256, v3 (ix2 p kk) * v13 (ix2 r kk) := by
  unfold k0_pay5 k0_pay3
  have e3 : shapeCast S2048x256 v3 Facts₀.shapeCasts_S2048x256_S2048x256 = v3 := shapeCast_self _ _
  try dsimp only
  rw [e3]
  refine (congrFun (shapeCast_self _ _) (ix2 p r)).trans ?_
  refine congrArg (v15 (ix2 p r) + ·) ?_
  exact (Cert.MatmulAt.matmul_zero_nt_apply Facts₀.dot_S2048x256_S64x256_S2048x64_1_1_0_0_n_n_wf none
    (truncf .bf16 v3 Facts₀.bitsLt_bf16_f32) (truncf .bf16 v13 Facts₀.bitsLt_bf16_f32) p r).trans (Finset.sum_congr rfl fun _ _ => rfl)

/-- At the last block the output gains twice the contraction of row p of x · Aᵀ with row q of the second factor's block. -/
theorem pay6_apply (v24 v26 : Vec Ideal S2048x64 .f32) (v29 : Vec Ideal S2048x2048 .f32) (p q : Fin 2048) :
    k0_pay6 (F := Ideal) v24 v26 v29 (ix2 p q)
      = v29 (ix2 p q) + Ideal.ofBits .f32 0x40000000#32 * ∑ r : Fin 64, v26 (ix2 p r) * v24 (ix2 q r) := by
  unfold k0_pay6
  have e9 : shapeCast S2048x2048 v29 Facts₀.shapeCasts_S2048x2048_S2048x2048 = v29 := shapeCast_self _ _
  try dsimp only
  rw [e9]
  refine congrArg (v29 (ix2 p q) + ·) ?_
  refine congrArg (Ideal.ofBits .f32 0x40000000#32 * ·) ?_
  exact (Cert.MatmulAt.matmul_zero_nt_apply Facts₀.dot_S2048x64_S2048x64_S2048x2048_1_1_0_0_n_n_wf none
    (truncf .bf16 v26 Facts₀.bitsLt_bf16_f32) (truncf .bf16 v24 Facts₀.bitsLt_bf16_f32) p q).trans (Finset.sum_congr rfl fun _ _ => rfl)

end Cert.KernelIdeal.Payloads

end
-- ==== Proof.LibWords.lean ====
/-
  Small facts about 32-bit words that count rows and columns: a word built from a natural number below 2^32 determines it, so an
  integer comparison of two such words is the comparison of the numbers; and block-row arithmetic t · s + q on words is the
  word of the number t · s + q.
-/
import Idealize.ShloMosaic.PureOps.Float
import Mathlib.Data.Fintype.BigOperators
import Mathlib.Algebra.BigOperators.Fin
import Mathlib.Logic.Equiv.Fin.Basic

namespace Cert.Lib

open Idealize.ShloMosaic

/-- A word of a number below 2^32 determines the number. -/
theorem ofNat32_inj {a b : ℕ} (ha : a < 2 ^ 32) (hb : b < 2 ^ 32) : BitVec.ofNat 32 a = BitVec.ofNat 32 b ↔ a = b := by
  constructor
  · intro e
    have h := congrArg BitVec.toNat e
    rw [BitVec.toNat_ofNat, BitVec.toNat_ofNat, Nat.mod_eq_of_lt ha, Nat.mod_eq_of_lt hb] at h
    exact h
  · intro e; rw [e]

/-- Block-row arithmetic on words: (t · s) + q. -/
theorem ofNat32_mul_add (t s q : ℕ) : BitVec.ofNat 32 t * BitVec.ofNat 32 s + BitVec.ofNat 32 q = BitVec.ofNat 32 (t * s + q) := by
  rw [BitVec.ofNat_add, BitVec.ofNat_mul]

/-- "Not equal" on two such words is "not equal" on the numbers. -/
theorem cmpi_ne_ofNat32 {a b : ℕ} (ha : a < 2 ^ 32) (hb : b < 2 ^ 32) :
    IntOp.cmpi .ne (BitVec.ofNat 32 a) (BitVec.ofNat 32 b) = if a ≠ b then 1#1 else 0#1 := by
  unfold IntOp.cmpi
  by_cases h : a = b
  · subst h; simp
  · have h' : BitVec.ofNat 32 a ≠ BitVec.ofNat 32 b := fun e => h ((ofNat32_inj ha hb).mp e)
    rw [if_pos h]
    show BitVec.ofBool (BitVec.ofNat 32 a != BitVec.ofNat 32 b) = 1#1
    rw [show (BitVec.ofNat 32 a != BitVec.ofNat 32 b) = true from bne_iff_ne.mpr h']
    rfl

/-- "Equal" on two such words is "equal" on the numbers. -/
theorem cmpi_eq_ofNat32 {a b : ℕ} (ha : a < 2 ^ 32) (hb : b < 2 ^ 32) :
    IntOp.cmpi .eq (BitVec.ofNat 32 a) (BitVec.ofNat 32 b) = if a = b then 1#1 else 0#1 := by
  unfold IntOp.cmpi
  by_cases h : a = b
  · subst h; simp
  · have h' : BitVec.ofNat 32 a ≠ BitVec.ofNat 32 b := fun e => h ((ofNat32_inj ha hb).mp e)
    rw [if_neg h]
    show BitVec.ofBool (BitVec.ofNat 32 a == BitVec.ofNat 32 b) = 0#1
    rw [show (BitVec.ofNat 32 a == BitVec.ofNat 32 b) = false from beq_eq_false_iff_ne.mpr h']
    rfl

/-- A sum over a · b consecutive positions is the sum over a blocks of b positions. -/
theorem sum_fin_blocks {M : Type*} [AddCommMonoid M] (a b : ℕ) (f : Fin (a * b) → M) :
    ∑ i, f i = ∑ r : Fin a, ∑ q : Fin b, f (finProdFinEquiv (r, q)) :=
  (Fintype.sum_equiv finProdFinEquiv (fun p => f (finProdFinEquiv p)) f (fun _ => rfl)).symm.trans (Fintype.sum_prod_type _)

/-- The position of entry q of block r. -/
theorem finProdFinEquiv_val (a b : ℕ) (r : Fin a) (q : Fin b) : (finProdFinEquiv (r, q) : Fin (a * b)).val = q.val + b * r.val := rfl

end Cert.Lib
-- ==== Proof.Spec.lean ====
/-
  The low-rank-adapted linear layer, entry by entry, and its contraction cut into blocks.

  On flattened rows the layer is  out(u, o) = ∑_d x(u, d) · W(o, d) + 2 · ∑_r (∑_d x(u, d) · A(r, d)) · B(o, r):
  the base product x · Wᵀ plus twice the low-rank product (x · Aᵀ) · Bᵀ. The contraction over the 4096 input
  features can be taken sixteen blocks of 256 at a time: a running sum over the first n blocks, started at nothing,
  is after sixteen blocks the whole contraction (`sum_blocks`). Only commutativity and associativity of addition
  on the extended reals are used, so nothing here asks the entries to be finite.
-/
import Idealize.ShloMosaic.PureOps.Ideal.Laws
import Idealize.ShloMosaic.Lib.ValueIdx
import proofs.«105471_j53068615909970_2_alg».proof.Proof.LibWords

noncomputable section

namespace Cert.Lora

open Idealize.ShloMosaic Idealize.ShloMosaic.ValueIdx

/-- The factor of the low-rank term, 2. -/
abbrev two : EReal := Ideal.ofBits .f32 0x40000000#32

/-- Flattened activations [8192, 4096], base weight [4096, 4096], the adapter's factors [64, 4096] and [4096, 64]. -/
abbrev SX : Shape := ⟨2, ![8192, 4096]⟩
abbrev SW : Shape := ⟨2, ![4096, 4096]⟩
abbrev SA : Shape := ⟨2, ![64, 4096]⟩
abbrev SB : Shape := ⟨2, ![4096, 64]⟩

variable (X : SX.Idx → EReal) (W : SW.Idx → EReal) (A : SA.Idx → EReal) (B : SB.Idx → EReal)

/-- Entry (u, r) of x · Aᵀ. -/
def xa (u : Fin 8192) (r : Fin 64) : EReal := ∑ d : Fin 4096, X (ix2 u d) * A (ix2 r d)

/-- The layer at (u, o): the base product plus twice the low-rank product. -/
def layer (y : SX.Idx) : EReal :=
  (∑ d : Fin 4096, X (ix2 (y 0) d) * W (ix2 (y 1) d)) + two * ∑ r : Fin 64, xa X A (y 0) r * B (ix2 (y 1) r)

/-! ## Blocks -/

/-- Row p of the I-th block of 2048 rows of the activations (four blocks). -/
def xrow (I : ℕ) (p : Fin 2048) : Fin 8192 :=
  ⟨(I % 4) * 2048 + p.val, by have := p.isLt; have := Nat.mod_lt I (by norm_num : 0 < 4); omega⟩

/-- Row q of the J-th block of 2048 output features (two blocks). -/
def wrow (J : ℕ) (q : Fin 2048) : Fin 4096 :=
  ⟨(J % 2) * 2048 + q.val, by have := q.isLt; have := Nat.mod_lt J (by norm_num : 0 < 2); omega⟩

/-- Position kk of the b-th block of 256 input features (sixteen blocks). -/
def kcol (b : ℕ) (kk : Fin 256) : Fin 4096 :=
  ⟨(b % 16) * 256 + kk.val, by have := kk.isLt; have := Nat.mod_lt b (by norm_num : 0 < 16); omega⟩

/-- Block b's share of entry (p, q) of the base product of row block I and feature block J. -/
def blkW (I J : ℕ) (p q : Fin 2048) (b : ℕ) : EReal :=
  ∑ kk : Fin 256, X (ix2 (xrow I p) (kcol b kk)) * W (ix2 (wrow J q) (kcol b kk))

/-- Block b's share of entry (p, r) of x · Aᵀ on row block I. -/
def blkA (I : ℕ) (p : Fin 2048) (r : Fin 64) (b : ℕ) : EReal :=
  ∑ kk : Fin 256, X (ix2 (xrow I p) (kcol b kk)) * A (ix2 r (kcol b kk))

/-- The base product's entry after the first n blocks. -/
def baseSum (I J : ℕ) (p q : Fin 2048) (n : ℕ) : EReal := ∑ b ∈ Finset.range n, blkW X W I J p q b

/-- Entry (p, r) of x · Aᵀ after the first n blocks. -/
def xaSum (I : ℕ) (p : Fin 2048) (r : Fin 64) (n : ℕ) : EReal := ∑ b ∈ Finset.range n, blkA X A I p r b

/-- What the last block leaves: the whole base product plus twice the low-rank product of the whole x · Aᵀ. -/
def outLast (I J : ℕ) (p q : Fin 2048) : EReal :=
  baseSum X W I J p q 16 + two * ∑ r : Fin 64, xaSum X A I p r 16 * B (ix2 (wrow J q) r)

/-- Sixteen blocks of 256 positions are the 4096 positions: the blocked sum is the plain one. -/
theorem sum_blocks (f : Fin 4096 → EReal) :
    ∑ b ∈ Finset.range 16, ∑ kk : Fin 256, f (kcol b kk) = ∑ d : Fin 4096, f d := by
  rw [← Fin.sum_univ_eq_sum_range (fun b => ∑ kk : Fin 256, f (kcol b kk)) 16]
  refine Eq.symm ((Cert.Lib.sum_fin_blocks 16 256 f).trans ?_)
  refine Finset.sum_congr rfl fun r _ => Finset.sum_congr rfl fun q _ => congrArg f (Fin.ext ?_)
  show q.val + 256 * r.val = (r.val % 16) * 256 + q.val
  have := r.isLt
  omega

theorem baseSum_zero (I J : ℕ) (p q : Fin 2048) : baseSum X W I J p q 0 = 0 := Finset.sum_range_zero _

theorem baseSum_succ (I J : ℕ) (p q : Fin 2048) (n : ℕ) :
    baseSum X W I J p q (n + 1) = baseSum X W I J p q n + blkW X W I J p q n := Finset.sum_range_succ _ _

theorem xaSum_zero (I : ℕ) (p : Fin 2048) (r : Fin 64) : xaSum X A I p r 0 = 0 := Finset.sum_range_zero _

theorem xaSum_succ (I : ℕ) (p : Fin 2048) (r : Fin 64) (n : ℕ) :
    xaSum X A I p r (n + 1) = xaSum X A I p r n + blkA X A I p r n := Finset.sum_range_succ _ _

/-- After all sixteen blocks the running base product is the whole contraction. -/
theorem baseSum_full (I J : ℕ) (p q : Fin 2048) :
    baseSum X W I J p q 16 = ∑ d : Fin 4096, X (ix2 (xrow I p) d) * W (ix2 (wrow J q) d) :=
  sum_blocks (fun d => X (ix2 (xrow I p) d) * W (ix2 (wrow J q) d))

/-- After all sixteen blocks the running x · Aᵀ is the whole one. -/
theorem xaSum_full (I : ℕ) (p : Fin 2048) (r : Fin 64) : xaSum X A I p r 16 = xa X A (xrow I p) r :=
  sum_blocks (fun d => X (ix2 (xrow I p) d) * A (ix2 r d))

/-- So the last block leaves the layer's entry at the block's row and feature. -/
theorem outLast_eq (I J : ℕ) (p q : Fin 2048) :
    outLast X W A B I J p q = layer X W A B (ix2 (xrow I p) (wrow J q)) := by
  unfold outLast layer
  rw [baseSum_full]
  simp only [xaSum_full]

end Cert.Lora

end
-- ==== Proof.Steps.lean ====
/-
  One grid point's effect on the running sums.

  If the point's input blocks are the K-block k of the activations' row block I, of the weight's feature block J and of
  the adapter's first factor, and the accumulators hold the running sums over the blocks before k, then the point's
  stores leave the running sums over the blocks up to k; the first block starts both from zero, and the last one
  completes the layer's entry.
-/
import proofs.«105471_j53068615909970_2_alg».proof.Proof.Payloads
import proofs.«105471_j53068615909970_2_alg».proof.Proof.Spec

noncomputable section

namespace Cert.KernelIdeal.Steps

open Cert.KernelIdeal Cert.KernelIdeal.Gen Cert.KernelIdeal.Payloads Cert.Lora Idealize.ShloMosaic Idealize.ShloMosaic.ValueIdx

variable (X : SX.Idx → EReal) (W : SW.Idx → EReal) (A : SA.Idx → EReal) (B : SB.Idx → EReal) (I J : ℕ)

/-- x · Aᵀ gains block k. -/
theorem xa_next (k : ℕ) (x0 : Vec Ideal S2048x256 .f32) (x2 : Vec Ideal S64x256 .f32) (xs : Vec Ideal S2048x64 .f32)
    (hx0 : ∀ (p : Fin 2048) (kk : Fin 256), x0 (ix2 p kk) = X (ix2 (xrow I p) (kcol k kk)))
    (hx2 : ∀ (r : Fin 64) (kk : Fin 256), x2 (ix2 r kk) = A (ix2 r (kcol k kk)))
    (hxs : ∀ (p : Fin 2048) (r : Fin 64), xs (ix2 p r) = xaSum X A I p r k) (p : Fin 2048) (r : Fin 64) :
    k0_pay5 (F := Ideal) x0 x2 xs (ix2 p r) = xaSum X A I p r (k + 1) := by
  rw [pay5_apply, hxs, xaSum_succ]
  refine congrArg (xaSum X A I p r k + ·) ?_
  unfold blkA
  exact Finset.sum_congr rfl fun kk _ => by rw [hx0, hx2]

/-- x · Aᵀ after the first block. -/
theorem xa_first (x0 : Vec Ideal S2048x256 .f32) (x2 : Vec Ideal S64x256 .f32)
    (hx0 : ∀ (p : Fin 2048) (kk : Fin 256), x0 (ix2 p kk) = X (ix2 (xrow I p) (kcol 0 kk)))
    (hx2 : ∀ (r : Fin 64) (kk : Fin 256), x2 (ix2 r kk) = A (ix2 r (kcol 0 kk))) (p : Fin 2048) (r : Fin 64) :
    k0_pay5 (F := Ideal) x0 x2 (k0_pay2 (F := Ideal)) (ix2 p r) = xaSum X A I p r (0 + 1) :=
  xa_next X A I 0 x0 x2 _ hx0 hx2 (fun p r => (pay2_apply _).trans (xaSum_zero X A I p r).symm) p r

/-- The base product gains block k. -/
theorem base_next (k : ℕ) (x0 x1 : Vec Ideal S2048x256 .f32) (xo : Vec Ideal S2048x2048 .f32)
    (hx0 : ∀ (p : Fin 2048) (kk : Fin 256), x0 (ix2 p kk) = X (ix2 (xrow I p) (kcol k kk)))
    (hx1 : ∀ (q : Fin 2048) (kk : Fin 256), x1 (ix2 q kk) = W (ix2 (wrow J q) (kcol k kk)))
    (hxo : ∀ (p q : Fin 2048), xo (ix2 p q) = baseSum X W I J p q k) (p q : Fin 2048) :
    k0_pay4 (F := Ideal) x0 x1 xo (ix2 p q) = baseSum X W I J p q (k + 1) := by
  rw [pay4_apply, hxo, baseSum_succ]
  refine congrArg (baseSum X W I J p q k + ·) ?_
  unfold blkW
  exact Finset.sum_congr rfl fun kk _ => by rw [hx0, hx1]

/-- The base product after the first block. -/
theorem base_first (x0 x1 : Vec Ideal S2048x256 .f32)
    (hx0 : ∀ (p : Fin 2048) (kk : Fin 256), x0 (ix2 p kk) = X (ix2 (xrow I p) (kcol 0 kk)))
    (hx1 : ∀ (q : Fin 2048) (kk : Fin 256), x1 (ix2 q kk) = W (ix2 (wrow J q) (kcol 0 kk))) (p q : Fin 2048) :
    k0_pay4 (F := Ideal) x0 x1 (k0_pay1 (F := Ideal)) (ix2 p q) = baseSum X W I J p q (0 + 1) :=
  base_next X W I J 0 x0 x1 _ hx0 hx1 (fun p q => (pay1_apply _).trans (baseSum_zero X W I J p q).symm) p q

/-- The last block: the base product is completed and twice the low-rank product of the completed x · Aᵀ is added. -/
theorem out_last (x0 x1 : Vec Ideal S2048x256 .f32) (x2 : Vec Ideal S64x256 .f32) (x3 : Vec Ideal S2048x64 .f32)
    (xo : Vec Ideal S2048x2048 .f32) (xs : Vec Ideal S2048x64 .f32)
    (hx0 : ∀ (p : Fin 2048) (kk : Fin 256), x0 (ix2 p kk) = X (ix2 (xrow I p) (kcol 15 kk)))
    (hx1 : ∀ (q : Fin 2048) (kk : Fin 256), x1 (ix2 q kk) = W (ix2 (wrow J q) (kcol 15 kk)))
    (hx2 : ∀ (r : Fin 64) (kk : Fin 256), x2 (ix2 r kk) = A (ix2 r (kcol 15 kk)))
    (hx3 : ∀ (q : Fin 2048) (r : Fin 64), x3 (ix2 q r) = B (ix2 (wrow J q) r))
    (hxo : ∀ (p q : Fin 2048), xo (ix2 p q) = baseSum X W I J p q 15)
    (hxs : ∀ (p : Fin 2048) (r : Fin 64), xs (ix2 p r) = xaSum X A I p r 15) (p q : Fin 2048) :
    k0_pay6 (F := Ideal) x3 (k0_pay5 (F := Ideal) x0 x2 xs) (k0_pay4 (F := Ideal) x0 x1 xo) (ix2 p q)
      = outLast X W A B I J p q := by
  rw [pay6_apply, base_next X W I J 15 x0 x1 xo hx0 hx1 hxo p q]
  unfold outLast
  refine congrArg (baseSum X W I J p q 16 + ·) ?_
  refine congrArg (two * ·) ?_
  exact Finset.sum_congr rfl fun r _ => by rw [xa_next X A I 15 x0 x2 xs hx0 hx2 hxs p r, hx3]

end Cert.KernelIdeal.Steps

end
-- ==== Proof.Accum.lean ====
/-
  The two accumulators after every grid point.

  The grid's 128 points run, for each of the four row blocks I and two feature blocks J, through the sixteen K-blocks
  in order: the point at position n has I = n / 32, J = n / 16 mod 2 and K-block n mod 16. Its input blocks are the
  corresponding blocks of the arrays (`blk0` … `blk3`), so by induction on the position the accumulator for x · Aᵀ
  holds the running sum over the K-blocks up to the point's, and the output block holds the running base product —
  until the last K-block, after which it holds the layer's entries for its rows and features.
-/
import proofs.«105471_j53068615909970_2_alg».proof.Proof.Pieces
import proofs.«105471_j53068615909970_2_alg».proof.Proof.Steps
import Idealize.ShloMosaic.Lib.Pipeline.Value

noncomputable section

namespace Cert.KernelIdeal.Accum

open Cert.KernelIdeal Cert.KernelIdeal.Gen Cert.Lora
open Idealize.ShloMosaic Idealize.ShloMosaic.TcCoe Idealize.ShloMosaic.ValueIdx Idealize.SL.Sem

variable (m : (ℓ : Loc nD τ sig) → Buf (Elt Ideal) ℓ)

/-- The four arrays as the grid finds them: the flattened activations, the weight, the adapter's two factors. -/
abbrev Xr (c : Dev nD) : SX.Idx → EReal := V m c main_v0
abbrev Wr (c : Dev nD) : SW.Idx → EReal := V m c main_arg1
abbrev Ar (c : Dev nD) : SA.Idx → EReal := V m c main_arg2
abbrev Br (c : Dev nD) : SB.Idx → EReal := V m c main_arg3

/-- Which block of each array the point at position n works on. -/
theorem idx_facts : ∀ t : Fin cfg0.N,
    win0_0.index t (0 : Fin 2) = t.val / 32 ∧ win0_0.index t (1 : Fin 2) = t.val % 16
    ∧ win0_1.index t (0 : Fin 2) = t.val / 16 % 2 ∧ win0_1.index t (1 : Fin 2) = t.val % 16
    ∧ win0_2.index t (0 : Fin 2) = 0 ∧ win0_2.index t (1 : Fin 2) = t.val % 16
    ∧ win0_3.index t (0 : Fin 2) = t.val / 16 % 2 ∧ win0_3.index t (1 : Fin 2) = 0
    ∧ win0_4.index t (0 : Fin 2) = t.val / 32 ∧ win0_4.index t (1 : Fin 2) = t.val / 16 % 2 :=
  (by decide +kernel : ∀ t : Fin grid0.N, _)

/-! ## The input blocks -/

/-- The activations' block: rows of row block I, features of K-block k. -/
theorem blk0 (c : Dev nD) (t : Fin cfg0.N) (p : Fin 2048) (kk : Fin 256) :
    (iblk m c 0 t : Vec Ideal S2048x256 .f32) (ix2 p kk)
      = Xr m c (ix2 (xrow (t.val / 32) p) (kcol (t.val % 16) kk)) := by
  obtain ⟨e0, e1, -⟩ := idx_facts t
  have hN : t.val < 128 := lt_of_lt_of_eq t.isLt N_0
  unfold iblk
  rw [View.read_apply]
  show V m c main_v0 _ = V m c main_v0 _
  congr 1
  funext a
  apply Fin.ext
  match a with
  | ⟨0, _⟩ => show win0_0.index t (0 : Fin 2) * 2048 + 1 * p.val = (t.val / 32 % 4) * 2048 + p.val; rw [e0]; omega
  | ⟨1, _⟩ => show win0_0.index t (1 : Fin 2) * 256 + 1 * kk.val = (t.val % 16 % 16) * 256 + kk.val; rw [e1]; omega

/-- The weight's block: rows of feature block J, features of K-block k. -/
theorem blk1 (c : Dev nD) (t : Fin cfg0.N) (q : Fin 2048) (kk : Fin 256) :
    (iblk m c 1 t : Vec Ideal S2048x256 .f32) (ix2 q kk)
      = Wr m c (ix2 (wrow (t.val / 16 % 2) q) (kcol (t.val % 16) kk)) := by
  obtain ⟨-, -, e0, e1, -⟩ := idx_facts t
  have hN : t.val < 128 := lt_of_lt_of_eq t.isLt N_0
  unfold iblk
  rw [View.read_apply]
  show V m c main_arg1 _ = V m c main_arg1 _
  congr 1
  funext a
  apply Fin.ext
  match a with
  | ⟨0, _⟩ => show win0_1.index t (0 : Fin 2) * 2048 + 1 * q.val = (t.val / 16 % 2 % 2) * 2048 + q.val; rw [e0]; omega
  | ⟨1, _⟩ => show win0_1.index t (1 : Fin 2) * 256 + 1 * kk.val = (t.val % 16 % 16) * 256 + kk.val; rw [e1]; omega

/-- The first factor's block: all 64 rows, features of K-block k. -/
theorem blk2 (c : Dev nD) (t : Fin cfg0.N) (r : Fin 64) (kk : Fin 256) :
    (iblk m c 2 t : Vec Ideal S64x256 .f32) (ix2 r kk) = Ar m c (ix2 r (kcol (t.val % 16) kk)) := by
  obtain ⟨-, -, -, -, e0, e1, -⟩ := idx_facts t
  have hN : t.val < 128 := lt_of_lt_of_eq t.isLt N_0
  unfold iblk
  rw [View.read_apply]
  show V m c main_arg2 _ = V m c main_arg2 _
  congr 1
  funext a
  apply Fin.ext
  match a with
  | ⟨0, _⟩ => show win0_2.index t (0 : Fin 2) * 64 + 1 * r.val = r.val; rw [e0]; omega
  | ⟨1, _⟩ => show win0_2.index t (1 : Fin 2) * 256 + 1 * kk.val = (t.val % 16 % 16) * 256 + kk.val; rw [e1]; omega

/-- The second factor's block: rows of feature block J, all 64 columns. -/
theorem blk3 (c : Dev nD) (t : Fin cfg0.N) (q : Fin 2048) (r : Fin 64) :
    (iblk m c 3 t : Vec Ideal S2048x64 .f32) (ix2 q r) = Br m c (ix2 (wrow (t.val / 16 % 2) q) r) := by
  obtain ⟨-, -, -, -, -, -, e0, e1, -⟩ := idx_facts t
  have hN : t.val < 128 := lt_of_lt_of_eq t.isLt N_0
  unfold iblk
  rw [View.read_apply]
  show V m c main_arg3 _ = V m c main_arg3 _
  congr 1
  funext a
  apply Fin.ext
  match a with
  | ⟨0, _⟩ => show win0_3.index t (0 : Fin 2) * 2048 + 1 * q.val = (t.val / 16 % 2 % 2) * 2048 + q.val; rw [e0]; omega
  | ⟨1, _⟩ => show win0_3.index t (1 : Fin 2) * 64 + 1 * r.val = r.val; rw [e1]; omega

/-! ## One point -/

/-- A point on the first K-block leaves both accumulators at the first block's share. -/
theorem at_first (c : Dev nD) (t : Fin cfg0.N) (h0 : t.val % 16 = 0) :
    (∀ (p : Fin 2048) (r : Fin 64), (outsAt0 m c t.val t.isLt).2 (ix2 p r) = xaSum (Xr m c) (Ar m c) (t.val / 32) p r (0 + 1))
    ∧ (∀ (p q : Fin 2048), (outsAt0 m c t.val t.isLt).1 (ix2 p q)
        = baseSum (Xr m c) (Wr m c) (t.val / 32) (t.val / 16 % 2) p q (0 + 1)) := by
  have h1 : ¬t.val % 16 = 15 := by omega
  rw [outsAt0_A m c t h0 h1]
  dsimp only
  rw [Pieces.out_A, Pieces.sout_A]
  refine ⟨fun p r => ?_, fun p q => ?_⟩
  · exact Steps.xa_first (Xr m c) (Ar m c) (t.val / 32) (iblk m c 0 t) (iblk m c 2 t)
      (fun p kk => (blk0 m c t p kk).trans (by rw [h0])) (fun r kk => (blk2 m c t r kk).trans (by rw [h0])) p r
  · exact Steps.base_first (Xr m c) (Wr m c) (t.val / 32) (t.val / 16 % 2) (iblk m c 0 t) (iblk m c 1 t)
      (fun p kk => (blk0 m c t p kk).trans (by rw [h0])) (fun q kk => (blk1 m c t q kk).trans (by rw [h0])) p q

/-- A point on a middle K-block adds that block's share to both. -/
theorem at_mid (c : Dev nD) (t : Fin cfg0.N) (h0 : ¬t.val % 16 = 0) (h1 : ¬t.val % 16 = 15) (hp : t.val - 1 < cfg0.N)
    (ihs : ∀ (p : Fin 2048) (r : Fin 64), (outsAt0 m c (t.val - 1) hp).2 (ix2 p r)
      = xaSum (Xr m c) (Ar m c) (t.val / 32) p r (t.val % 16))
    (iho : ∀ (p q : Fin 2048), (outsAt0 m c (t.val - 1) hp).1 (ix2 p q)
      = baseSum (Xr m c) (Wr m c) (t.val / 32) (t.val / 16 % 2) p q (t.val % 16)) :
    (∀ (p : Fin 2048) (r : Fin 64), (outsAt0 m c t.val t.isLt).2 (ix2 p r)
      = xaSum (Xr m c) (Ar m c) (t.val / 32) p r (t.val % 16 + 1))
    ∧ (∀ (p q : Fin 2048), (outsAt0 m c t.val t.isLt).1 (ix2 p q)
        = baseSum (Xr m c) (Wr m c) (t.val / 32) (t.val / 16 % 2) p q (t.val % 16 + 1)) := by
  rw [outsAt0_B m c t h0 h1]
  dsimp only
  rw [Pieces.out_B, Pieces.sout_B]
  refine ⟨fun p r => ?_, fun p q => ?_⟩
  · exact Steps.xa_next (Xr m c) (Ar m c) (t.val / 32) (t.val % 16) (iblk m c 0 t) (iblk m c 2 t)
      (outsAt0 m c (t.val - 1) hp).2 (blk0 m c t) (blk2 m c t) ihs p r
  · exact Steps.base_next (Xr m c) (Wr m c) (t.val / 32) (t.val / 16 % 2) (t.val % 16) (iblk m c 0 t) (iblk m c 1 t)
      (outsAt0 m c (t.val - 1) hp).1 (blk0 m c t) (blk1 m c t) iho p q

/-- A point on the last K-block completes x · Aᵀ and leaves the layer's entries in the output block. -/
theorem at_last (c : Dev nD) (t : Fin cfg0.N) (h0 : ¬t.val % 16 = 0) (h1 : t.val % 16 = 15) (hp : t.val - 1 < cfg0.N)
    (ihs : ∀ (p : Fin 2048) (r : Fin 64), (outsAt0 m c (t.val - 1) hp).2 (ix2 p r)
      = xaSum (Xr m c) (Ar m c) (t.val / 32) p r 15)
    (iho : ∀ (p q : Fin 2048), (outsAt0 m c (t.val - 1) hp).1 (ix2 p q)
      = baseSum (Xr m c) (Wr m c) (t.val / 32) (t.val / 16 % 2) p q 15) :
    (∀ (p : Fin 2048) (r : Fin 64), (outsAt0 m c t.val t.isLt).2 (ix2 p r)
      = xaSum (Xr m c) (Ar m c) (t.val / 32) p r (15 + 1))
    ∧ (∀ (p q : Fin 2048), (outsAt0 m c t.val t.isLt).1 (ix2 p q)
        = outLast (Xr m c) (Wr m c) (Ar m c) (Br m c) (t.val / 32) (t.val / 16 % 2) p q) := by
  have b0 : ∀ (p : Fin 2048) (kk : Fin 256), (iblk m c 0 t : Vec Ideal S2048x256 .f32) (ix2 p kk)
      = Xr m c (ix2 (xrow (t.val / 32) p) (kcol 15 kk)) := fun p kk => (blk0 m c t p kk).trans (by rw [h1])
  have b1 : ∀ (q : Fin 2048) (kk : Fin 256), (iblk m c 1 t : Vec Ideal S2048x256 .f32) (ix2 q kk)
      = Wr m c (ix2 (wrow (t.val / 16 % 2) q) (kcol 15 kk)) := fun q kk => (blk1 m c t q kk).trans (by rw [h1])
  have b2 : ∀ (r : Fin 64) (kk : Fin 256), (iblk m c 2 t : Vec Ideal S64x256 .f32) (ix2 r kk)
      = Ar m c (ix2 r (kcol 15 kk)) := fun r kk => (blk2 m c t r kk).trans (by rw [h1])
  rw [outsAt0_C m c t h0 h1]
  dsimp only
  rw [Pieces.out_C, Pieces.sout_C]
  refine ⟨fun p r => ?_, fun p q => ?_⟩
  · exact Steps.xa_next (Xr m c) (Ar m c) (t.val / 32) 15 (iblk m c 0 t) (iblk m c 2 t)
      (outsAt0 m c (t.val - 1) hp).2 b0 b2 ihs p r
  · exact Steps.out_last (Xr m c) (Wr m c) (Ar m c) (Br m c) (t.val / 32) (t.val / 16 % 2) (iblk m c 0 t) (iblk m c 1 t)
      (iblk m c 2 t) (iblk m c 3 t) (outsAt0 m c (t.val - 1) hp).1 (outsAt0 m c (t.val - 1) hp).2 b0 b1 b2 (blk3 m c t)
      iho ihs p q

/-! ## Every point -/

/-- What the accumulators hold after the point at position n. -/
def Holds (c : Dev nD) (n : ℕ) (h : n < cfg0.N) : Prop :=
  (∀ (p : Fin 2048) (r : Fin 64), (outsAt0 m c n h).2 (ix2 p r) = xaSum (Xr m c) (Ar m c) (n / 32) p r (n % 16 + 1))
  ∧ (¬n % 16 = 15 → ∀ (p q : Fin 2048), (outsAt0 m c n h).1 (ix2 p q)
      = baseSum (Xr m c) (Wr m c) (n / 32) (n / 16 % 2) p q (n % 16 + 1))
  ∧ (n % 16 = 15 → ∀ (p q : Fin 2048), (outsAt0 m c n h).1 (ix2 p q)
      = outLast (Xr m c) (Wr m c) (Ar m c) (Br m c) (n / 32) (n / 16 % 2) p q)

theorem holds (c : Dev nD) : ∀ (n : ℕ) (h : n < cfg0.N), Holds m c n h
  | 0, h => by
    obtain ⟨hs, ho⟩ := at_first m c ⟨0, h⟩ rfl
    exact ⟨hs, fun _ => ho, fun h15 => absurd h15 (by decide)⟩
  | n + 1, h => by
    have hN : n + 1 < 128 := lt_of_lt_of_eq h N_0
    obtain ⟨ihs, iho, -⟩ := holds c n (Nat.lt_of_succ_lt h)
    by_cases h0 : (n + 1) % 16 = 0
    · obtain ⟨hs, ho⟩ := at_first m c ⟨n + 1, h⟩ h0
      refine ⟨?_, fun _ => ?_, fun h15 => by omega⟩
      · rw [h0]; exact hs
      · rw [h0]; exact ho
    · have hk : n % 16 + 1 = (n + 1) % 16 := by omega
      have hI : n / 32 = (n + 1) / 32 := by omega
      have hJ : n / 16 % 2 = (n + 1) / 16 % 2 := by omega
      have hn15 : ¬n % 16 = 15 := by omega
      have ihs' : ∀ (p : Fin 2048) (r : Fin 64), (outsAt0 m c n (Nat.lt_of_succ_lt h)).2 (ix2 p r)
          = xaSum (Xr m c) (Ar m c) ((n + 1) / 32) p r ((n + 1) % 16) := fun p r => by rw [← hk, ← hI]; exact ihs p r
      have iho' : ∀ (p q : Fin 2048), (outsAt0 m c n (Nat.lt_of_succ_lt h)).1 (ix2 p q)
          = baseSum (Xr m c) (Wr m c) ((n + 1) / 32) ((n + 1) / 16 % 2) p q ((n + 1) % 16) :=
        fun p q => by rw [← hk, ← hI, ← hJ]; exact iho hn15 p q
      by_cases h1 : (n + 1) % 16 = 15
      · obtain ⟨hs, ho⟩ := at_last m c ⟨n + 1, h⟩ h0 h1 (Nat.lt_of_succ_lt h)
          (fun p r => by rw [← h1]; exact ihs' p r) (fun p q => by rw [← h1]; exact iho' p q)
        refine ⟨?_, fun hn => absurd h1 hn, fun _ => ho⟩
        rw [h1]; exact hs
      · obtain ⟨hs, ho⟩ := at_mid m c ⟨n + 1, h⟩ h0 h1 (Nat.lt_of_succ_lt h) ihs' iho'
        exact ⟨hs, fun _ => ho, fun h15 => absurd h15 h1⟩

end Cert.KernelIdeal.Accum

end
-- ==== Proof.Flatten.lean ====
/-
  The layer on batched activations, and flattening the batch.

  The activations come as [4, 2048, 4096]; flattening the first two axes gives the [8192, 4096] rows the blocked
  computation works on, row 2048 · b + s being (b, s), and the result is cut back the same way. Both reshapes keep the
  row-major position, so the flattened layer cut back to [4, 2048, 4096] is the layer written directly on (b, s, o).
-/
import proofs.«105471_j53068615909970_2_alg».proof.Proof.Spec
import Idealize.ShloMosaic.Lib.Pipeline.Value

noncomputable section

namespace Cert.Lora

open Idealize.ShloMosaic Idealize.ShloMosaic.ValueIdx

/-- Batched activations and results [4, 2048, 4096]. -/
abbrev S3 : Shape := ⟨3, ![4, 2048, 4096]⟩

/-- The layer at (b, s, o): ∑_d x(b, s, d) · W(o, d) + 2 · ∑_r (∑_d x(b, s, d) · A(r, d)) · B(o, r). -/
def layer3 (x : S3.Idx → EReal) (W : SW.Idx → EReal) (A : SA.Idx → EReal) (B : SB.Idx → EReal) (z : S3.Idx) : EReal :=
  (∑ d : Fin 4096, x (ix3 (z 0) (z 1) d) * W (ix2 (z 2) d))
    + two * ∑ r : Fin 64, (∑ d : Fin 4096, x (ix3 (z 0) (z 1) d) * A (ix2 r d)) * B (ix2 (z 2) r)

/-- The flattened row of (b, s). -/
def urow (b : Fin 4) (s : Fin 2048) : Fin 8192 := ⟨b.val * 2048 + s.val, by have := b.isLt; have := s.isLt; omega⟩

/-- Flattening the batch: row 2048 · b + s of the flattened array is (b, s) of the batched one. -/
theorem flat_apply {α : Type} (x : S3.Idx → α) (h : S3.ShapeCasts SX) (b : Fin 4) (s : Fin 2048) (d : Fin 4096) :
    shapeCast SX x h (ix2 (urow b s) d) = x (ix3 b s d) :=
  shapeCast_apply x h _ _ (by
    rw [Shape.rowMajor_val_three, Shape.rowMajor_val_two]
    show (b.val * 2048 + s.val) * 4096 + d.val = (b.val * 2048 + s.val) * 4096 + d.val
    rfl)

/-- Cutting the rows back into batches: (b, s) of the batched array is row 2048 · b + s of the flattened one. -/
theorem unflat_apply {α : Type} (f : SX.Idx → α) (h : SX.ShapeCasts S3) (b : Fin 4) (s : Fin 2048) (o : Fin 4096) :
    shapeCast S3 f h (ix3 b s o) = f (ix2 (urow b s) o) :=
  shapeCast_apply f h _ _ (by
    rw [Shape.rowMajor_val_three, Shape.rowMajor_val_two]
    show (b.val * 2048 + s.val) * 4096 + o.val = (b.val * 2048 + s.val) * 4096 + o.val
    rfl)

/-- The layer of the flattened activations, cut back into batches, is the layer on (b, s, o). -/
theorem layer_flat (x : S3.Idx → EReal) (W : SW.Idx → EReal) (A : SA.Idx → EReal) (B : SB.Idx → EReal)
    (h1 : S3.ShapeCasts SX) (h2 : SX.ShapeCasts S3) :
    shapeCast S3 (layer (shapeCast SX x h1) W A B) h2 = layer3 x W A B := by
  funext z
  obtain ⟨b, s, o, rfl⟩ : ∃ (b : Fin 4) (s : Fin 2048) (o : Fin 4096), z = ix3 b s o := ⟨z 0, z 1, z 2, eq_ix3 z⟩
  rw [unflat_apply]
  show (∑ d : Fin 4096, shapeCast SX x h1 (ix2 (urow b s) d) * W (ix2 o d))
      + two * ∑ r : Fin 64, (∑ d : Fin 4096, shapeCast SX x h1 (ix2 (urow b s) d) * A (ix2 r d)) * B (ix2 o r)
    = (∑ d : Fin 4096, x (ix3 b s d) * W (ix2 o d))
      + two * ∑ r : Fin 64, (∑ d : Fin 4096, x (ix3 b s d) * A (ix2 r d)) * B (ix2 o r)
  simp only [flat_apply]

end Cert.Lora

end
-- ==== Proof.KernelValue.lean ====
/-
  The kernel's result.

  Only the points on the last K-block write their output block back, and by then the block holds the layer's entries for
  its 2048 rows and 2048 features; the eight such blocks tile the [8192, 4096] array, which therefore ends as the layer
  of the arrays the grid found. The activations it found are the batched input with the batch flattened (the host line
  before the grid), and the result is that array cut back into batches (the host line after it): the layer on (b, s, o).
-/
import proofs.«105471_j53068615909970_2_alg».proof.Proof.Accum
import proofs.«105471_j53068615909970_2_alg».proof.Proof.Flatten
import Idealize.ShloMosaic.Lib.Pipeline.Value
import Idealize.ShloMosaic.Lib.StableHlo.Run

noncomputable section

namespace Cert.KernelIdeal.Result

open Cert.KernelIdeal Cert.KernelIdeal.Gen Cert.KernelIdeal.Accum Cert.Lora
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The layer of the arrays the grid found, as contents of its result array. -/
abbrev G (c : Dev nD) : Buf (Elt Ideal) ((c : Thread nD τ).loc main_v1) :=
  (layer (Xr m c) (Wr m c) (Ar m c) (Br m c) : SX.Idx → EReal)

/-- A point on the last K-block writes back the layer's entries of its block. -/
theorem flushed_eq (c : Dev nD) (t : Fin cfg0.N) (hf : (cfg0.win 4).flush t = true) :
    (dats m 0 c).flushed 4 t = ((cfg0.win 4).blk t).view.read (Elt Ideal) (G m c) := by
  have h15 : t.val % 16 = 15 := (flush0_4 t).mp hf
  have hN : t.val < 128 := lt_of_lt_of_eq t.isLt N_0
  obtain ⟨-, -, -, -, -, -, -, -, e0, e1⟩ := idx_facts t
  have key : ∀ j : S2048x2048.Idx, (outsAt0 m c t.val t.isLt).1 j = G m c (((cfg0.win 4).blk t).view.emb j) := by
    intro j
    obtain ⟨p, q, rfl⟩ : ∃ (p q : Fin 2048), j = ix2 p q := ⟨j 0, j 1, eq_ix2 j⟩
    rw [(holds m c t.val t.isLt).2.2 h15 p q, outLast_eq]
    show layer (Xr m c) (Wr m c) (Ar m c) (Br m c) _ = layer (Xr m c) (Wr m c) (Ar m c) (Br m c) _
    congr 1
    funext a
    apply Fin.ext
    match a with
    | ⟨0, _⟩ => show (t.val / 32 % 4) * 2048 + p.val = win0_4.index t (0 : Fin 2) * 2048 + 1 * p.val; rw [e0]; omega
    | ⟨1, _⟩ => show (t.val / 16 % 2 % 2) * 2048 + q.val = win0_4.index t (1 : Fin 2) * 2048 + 1 * q.val; rw [e1]; omega
  show (cfg0.win 4).cut (grid0.coords t) ((dats m 0 c).after 4 t) = _
  rw [after0_4]
  funext j
  exact key j

/-- An entry of the result array lies in point t's block iff each coordinate lies in the block's range. -/
theorem mem_blk (t : Fin cfg0.N) (i : S8192x4096.Idx) :
    i ∈ ((cfg0.win 4).blk t).view.set ↔ ∀ a : Fin 2, win0_4.index t a * S2048x2048.size a ≤ (i a).val
      ∧ (i a).val < win0_4.index t a * S2048x2048.size a + S2048x2048.size a := by
  show i ∈ ((View.whole main_v1).slice (win0_4.rect t)).set ↔ _
  rw [View.set_slice_whole, Rect.mem_set_unit]
  exact Iff.rfl

/-- The eight written-back blocks tile the array, so it ends as the layer of the arrays the grid found. -/
theorem final (c : Dev nD) : (dats m 0 c).arrAt 4 cfg0.N = G m c :=
  (dats m 0 c).arrAt_eq_of_cover 4 (G m c) (flushed_eq m c) fun i => by
    have h0 : (i 0 : Nat) < 8192 := (i 0).isLt
    have h1 : (i 1 : Nat) < 4096 := (i 1).isLt
    have hN : cfg0.N = 128 := N_0
    have ht : (((i 0 : Nat) / 2048 * 2 + (i 1 : Nat) / 2048) * 16 + 15) < cfg0.N := by rw [hN]; omega
    obtain ⟨-, -, -, -, -, -, -, -, e0, e1⟩ := idx_facts ⟨_, ht⟩
    refine ⟨⟨_, ht⟩, (flush0_4 _).mpr (by dsimp only; omega), ?_⟩
    rw [mem_blk]
    intro a
    match a with
    | ⟨0, _⟩ =>
      show win0_4.index ⟨_, ht⟩ (0 : Fin 2) * 2048 ≤ (i 0 : Nat) ∧ (i 0 : Nat) < win0_4.index ⟨_, ht⟩ (0 : Fin 2) * 2048 + 2048
      rw [e0]; dsimp only; omega
    | ⟨1, _⟩ =>
      show win0_4.index ⟨_, ht⟩ (1 : Fin 2) * 2048 ≤ (i 1 : Nat) ∧ (i 1 : Nat) < win0_4.index ⟨_, ht⟩ (1 : Fin 2) * 2048 + 2048
      rw [e1]; dsimp only; omega

/-- The host line before the grid flattens the batch of the activations. -/
theorem X_eq (c : Dev nD) :
    Xr m c = shapeCast SX (m ((c : Thread nD τ).loc main_arg0)) Facts₀.shapeCasts_S4x2048x4096_S8192x4096 := by
  show StableHlo.after hostOps0 (fun b => m (c, b)) (Proc.devRef .tc main_v0) = _
  after_results
  rfl

/-- The host line after the grid cuts the result array back into batches. -/
theorem tail_eq (c : Dev nD) :
    Pipeline.afterTail₀ cfgs (dats m) 0 (V0 m) [hostOps1] c main_v2
      = shapeCast S3 (G m c) Facts₀.shapeCasts_S8192x4096_S4x2048x4096 := by
  have hw : Pipeline.withArrays (cfgs 0).spec c (V0 m c) (fun w => (dats m 0 c).arrAt w (cfgs 0).N)
      (Proc.devRef .tc main_v1) = G m c :=
    (Pipeline.withArrays_arr spec0 launch0.win.arr_inj c _ _ 4).trans (final m c)
  unfold Pipeline.afterTail₀
  show StableHlo.after hostOps1 _ (Proc.devRef .tc main_v2) = _
  after_results
  rw [hw]
  rfl

/-- So the result is the layer of the four inputs on (b, s, o). -/
theorem result_eq (c : Dev nD) :
    shapeCast S3 (G m c) Facts₀.shapeCasts_S8192x4096_S4x2048x4096
      = layer3 (m ((c : Thread nD τ).loc main_arg0)) (m ((c : Thread nD τ).loc main_arg1))
          (m ((c : Thread nD τ).loc main_arg2)) (m ((c : Thread nD τ).loc main_arg3)) := by
  have hX := X_eq m c
  have hW : Wr m c = m ((c : Thread nD τ).loc main_arg1) := V_main_arg1 m c
  have hA : Ar m c = m ((c : Thread nD τ).loc main_arg2) := V_main_arg2 m c
  have hB : Br m c = m ((c : Thread nD τ).loc main_arg3) := V_main_arg3 m c
  show shapeCast S3 (layer (Xr m c) (Wr m c) (Ar m c) (Br m c)) _ = _
  rw [hX, hW, hA, hB]
  exact layer_flat _ _ _ _ _ _

/-- The run, read: the result holds the layer of the inputs on (b, s, o), and the inputs are unchanged. -/
theorem run : θ_run defs (onTc (τ := τ) (main (F := Ideal))) ⟨m, fun _ => 0, ρ⟩ fun r => ∀ c : Dev nD,
      r.2.mem ((c.tc : Thread nD τ).loc main_v2)
        = layer3 (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(((h c).2 main_v2 (Pipeline.mem_restRefs_of main_v2 (by decide) (by decide))).trans (tail_eq m c)).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Result

end
-- ==== Proof.RefValue.lean ====
/-
  The reference's result, entry by entry.

  The reference contracts the batched activations with the weight, with the adapter's first factor and then that
  with the second, doubles the low-rank product and adds: read at (b, s, o), each contraction being a plain sum over
  the extended reals, this is the layer on (b, s, o).
-/
import proofs.«105471_j53068615909970_2_alg».proof.Proof.Gen.ReferenceIdeal.Read
import proofs.«105471_j53068615909970_2_alg».proof.Proof.Flatten

noncomputable section

namespace Cert.LoraRef

open Cert.ReferenceIdeal Cert.ReferenceIdeal.Read Cert.Lora Idealize.ShloMosaic Idealize.ShloMosaic.ValueIdx

theorem lidx0 (b : Fin 4) (s : Fin 2048) (o : Fin 4096) (k : Fin 4096) : lidx_main_v0 (ix3 b s o) k = ix3 b s k :=
  funext fun a => by match a with | ⟨0, _⟩ => rfl | ⟨1, _⟩ => rfl | ⟨2, _⟩ => rfl
theorem ridx0 (b : Fin 4) (s : Fin 2048) (o : Fin 4096) (k : Fin 4096) : ridx_main_v0 (ix3 b s o) k = ix2 o k :=
  funext fun a => by match a with | ⟨0, _⟩ => rfl | ⟨1, _⟩ => rfl
theorem lidx2 (b : Fin 4) (s : Fin 2048) (o : Fin 4096) (r : Fin 64) : lidx_main_v2 (ix3 b s o) r = ix3 b s r :=
  funext fun a => by match a with | ⟨0, _⟩ => rfl | ⟨1, _⟩ => rfl | ⟨2, _⟩ => rfl
theorem ridx2 (b : Fin 4) (s : Fin 2048) (o : Fin 4096) (r : Fin 64) : ridx_main_v2 (ix3 b s o) r = ix2 o r :=
  funext fun a => by match a with | ⟨0, _⟩ => rfl | ⟨1, _⟩ => rfl
theorem lidx1 (b : Fin 4) (s : Fin 2048) (r : Fin 64) (k : Fin 4096) : lidx_main_v1 (ix3 b s r) k = ix3 b s k :=
  funext fun a => by match a with | ⟨0, _⟩ => rfl | ⟨1, _⟩ => rfl | ⟨2, _⟩ => rfl
theorem ridx1 (b : Fin 4) (s : Fin 2048) (r : Fin 64) (k : Fin 4096) : ridx_main_v1 (ix3 b s r) k = ix2 r k :=
  funext fun a => by match a with | ⟨0, _⟩ => rfl | ⟨1, _⟩ => rfl

/-- The reference's result is the layer on (b, s, o). -/
theorem ref_eq (x : S3.Idx → EReal) (W : SW.Idx → EReal) (A : SA.Idx → EReal) (B : SB.Idx → EReal) :
    val_main_v5 (F := Ideal) x W A B = layer3 x W A B := by
  funext z
  obtain ⟨b, s, o, rfl⟩ : ∃ (b : Fin 4) (s : Fin 2048) (o : Fin 4096), z = ix3 b s o := ⟨z 0, z 1, z 2, eq_ix3 z⟩
  rw [val_main_v5_apply, val_main_v0_apply, val_main_v4_apply, val_main_v3_apply, val_main_cst_apply, val_main_v2_apply]
  simp only [lidx0, ridx0, lidx2, ridx2, val_main_v1_apply, lidx1, ridx1]
  rfl

end Cert.LoraRef

end
-- ==== Proof.lean ====
/-
  A linear layer with a low-rank adapter, out = x · Wᵀ + 2 · (x · Aᵀ) · Bᵀ, computed in blocks, against the same layer
  written as three contractions.

  The blocked computation keeps, for each 2048 × 2048 block of the result, a running base product and a running
  x · Aᵀ over sixteen blocks of 256 input features; after the last block it adds twice the product of the finished
  x · Aᵀ with Bᵀ. Over the extended reals a contraction is a plain sum, a change of float format changes nothing, and
  sums may be regrouped freely, so the running sums end at the whole contractions (Proof/Spec.lean) and the result is
  entry by entry the reference's (Proof/RefValue.lean): no finiteness of the inputs is needed. The kernel's side is read
  off its run: each grid point's stores as arithmetic (Proof/Pieces.lean, Proof/Payloads.lean, Proof/Steps.lean), the
  accumulators after every point by induction (Proof/Accum.lean), the written-back blocks tiling the result and the two
  host reshapes (Proof/KernelValue.lean, Proof/Flatten.lean). The idealization rewrote nothing, so it preserves the
  kernel trivially; the three programs terminate without a fault and leave their arguments unchanged.
-/
import proofs.«105471_j53068615909970_2_alg».proof.Defs
import proofs.«105471_j53068615909970_2_alg».proof.Proof.Gen.Kernel
import proofs.«105471_j53068615909970_2_alg».proof.Proof.Gen.Kernel.Skeleton
import proofs.«105471_j53068615909970_2_alg».proof.Proof.Gen.Kernel.Launch
import proofs.«105471_j53068615909970_2_alg».proof.Proof.Gen.Kernel.Points
import proofs.«105471_j53068615909970_2_alg».proof.Proof.Gen.Kernel.Frame
import proofs.«105471_j53068615909970_2_alg».proof.Proof.Gen.KernelIdeal
import proofs.«105471_j53068615909970_2_alg».proof.Proof.Gen.KernelIdeal.Skeleton
import proofs.«105471_j53068615909970_2_alg».proof.Proof.Gen.KernelIdeal.Launch
import proofs.«105471_j53068615909970_2_alg».proof.Proof.Gen.KernelIdeal.Points
import proofs.«105471_j53068615909970_2_alg».proof.Proof.Gen.KernelIdeal.Frame
import proofs.«105471_j53068615909970_2_alg».proof.Proof.Gen.ReferenceIdeal
import proofs.«105471_j53068615909970_2_alg».proof.Proof.Gen.ReferenceIdeal.Run
import proofs.«105471_j53068615909970_2_alg».proof.Proof.Gen.Pre_finite_inputs
import proofs.«105471_j53068615909970_2_alg».proof.Proof.KernelValue
import proofs.«105471_j53068615909970_2_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals both programs end with the layer of the inputs at every (b, s, o). -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.LoraRef.ref_eq, (hagree c).1, (hagree c).2.1, (hagree c).2.2.1,
    (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
